-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S2x800000 : Shape := ⟨2, ![2, 800000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000x64 .f32) (main_arg2 : IVec S2x800000 32) (main_arg3 : FVec F S192x128 .f32) (main_arg4 : FVec F S128 .f32) (main_arg5 : FVec F S128x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg3
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x64 : Shape := ⟨2, ![50000, 64]⟩
abbrev S800000x64 : Shape := ⟨2, ![800000, 64]⟩
abbrev S2x800000 : Shape := ⟨2, ![2, 800000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S64x128 : Shape := ⟨2, ![64, 128]⟩
abbrev S8000x64 : Shape := ⟨2, ![8000, 64]⟩
abbrev S8000x128 : Shape := ⟨2, ![8000, 128]⟩
abbrev S1x128 : Shape := ⟨2, ![1, 128]⟩
abbrev S1x64 : Shape := ⟨2, ![1, 64]⟩

abbrev nBuf : Space → Nat
  | .hbm => 34
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S192x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x64, .bf16⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .bf16⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S800000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x64, .f32⟩
  | .local _ .vmem, ⟨5, _⟩ => ⟨S8000x64, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S8000x64, .f32⟩
  | .local _ .vmem, ⟨13, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c : Ref sig .tc := ⟨.hbm, 12, rfl⟩
abbrev main_call0_v5 : Ref sig .tc := ⟨.hbm, 13, rfl⟩
abbrev main_call0_v6 : Ref sig .tc := ⟨.hbm, 14, rfl⟩
abbrev main_call0_c_0 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_1 : Ref sig .tc := ⟨.hbm, 21, rfl⟩
abbrev main_call0_v12 : Ref sig .tc := ⟨.hbm, 22, rfl⟩
abbrev main_call0_v13 : Ref sig .tc := ⟨.hbm, 23, rfl⟩
abbrev main_call0_c_2 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S192x128_S64x128_0_0 : S192x128.Slices ![0, 0] S64x128
  slices_S192x128_S64x128_64_0 : S192x128.Slices ![64, 0] S64x128
  slices_S192x128_S64x128_128_0 : S192x128.Slices ![128, 0] S64x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  gather_S50000x64_S800000x1_S800000x64_1_0_n_n_0_1_164_wf : GatherDims.WF S50000x64 S800000x1 S800000x64 [1] [0] [] [0] [] 1 ![1, 64]
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .bf16 = 32 ∨ (Rect.block (s := S800000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_call0_v11) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v20) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v21) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S2x800000 : Shape := ⟨2, ![2, 800000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S2x800000, .i32⟩
  | .hbm, ⟨3, _⟩ => ⟨S192x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x192, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S800000x128, .i1⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S800000x64, .f32⟩
  | .hbm, ⟨52, _⟩ => ⟨S1x64, .f32⟩
  | .hbm, ⟨53, _⟩ => ⟨S800000x64, .f32⟩
  | .hbm, ⟨54, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  dot_S800000x128_S128x64_S800000x64_1_0_0_1_n_n_wf : DotDims.WF S800000x128 S128x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.Spec.lean ====
/-
  One edge's update as a function of its feature rows, and the two laws that join its two spellings.

  An edge carries three rows of 64 numbers: the features of its source node, of its target node, and its own.
  A first dense layer sends them to 128 numbers: unit j is the sum of the three rows against the three
  64-row blocks of a 192 x 128 weight matrix, plus a bias. Each of the 128 numbers goes through the shifted
  softplus  x |-> max(x, 0) + log(1 + exp(-|x|)) - c  (c the single-precision word nearest log 2), and a second
  dense layer sends the result to 64 numbers. Everything is on the extended reals.

  The softplus is kept in the arrangement both programs print: under a test "x - 0 differs from itself",
  which no extended real passes, so the guarded branch is never taken; nothing here needs that fact, the
  two programs carry the same test.

  Two laws. A sum over 192 positions is the sum of its three consecutive blocks of 64 (in any commutative
  additive monoid, so on the extended reals with no finiteness). And 0 - a = -a, which joins "zero minus the
  absolute value" to "the negated absolute value" inside the exponential.
-/
import Idealize.ShloMosaic.PureOps.Ideal
import Idealize.ShloMosaic.PureOps.Ideal.Laws
import Idealize.ShloMosaic.Lib.ValueIdx

noncomputable section

namespace Cert.EdgeUpdate

open Idealize.ShloMosaic
open scoped BigOperators

/-- The single-precision zero word, as an extended real. -/
abbrev z32 : EReal := Ideal.ofBits .f32 0x00000000#32

/-- The single-precision word nearest log 2, as an extended real (never evaluated: the same word on both sides). -/
abbrev ln2 : EReal := Ideal.ofBits .f32 0x3F317218#32

/-- The shifted softplus in the arrangement max(x, 0) + log1p(exp(0 - |x - 0|)) - ln2, under its guard. -/
def ssp (x : EReal) : EReal :=
  Scalar.select (Ideal.cmp .one (x - z32) (x - z32)) (x + z32)
    (max x z32 + Ideal.log1p (Ideal.exp (z32 - max (x - z32) (-(x - z32))))) - ln2

/-- The same with the absolute value negated rather than subtracted from zero, and the guard spelt as the
    unordered-or-different test: the same extended real. -/
theorem ssp_neg_form (x : EReal) :
    Scalar.select (Ideal.cmp .une (x - z32) (x - z32)) (x + z32)
      (max x z32 + Ideal.log1p (Ideal.exp (-(max (x - z32) (-(x - z32)))))) - ln2 = ssp x := by
  unfold ssp
  have hz : z32 = 0 := Ideal.ofBits_zero_f32
  have h0 : z32 - max (x - z32) (-(x - z32)) = -(max (x - z32) (-(x - z32))) := by
    rw [hz, zero_sub]
  rw [h0]
  rfl

/-- Unit j of the first layer: the three rows against the three weight blocks, plus the bias. -/
def hidden (a b d : Fin 64 → EReal) (Wa Wb Wd : Fin 64 → Fin 128 → EReal) (b1 : Fin 128 → EReal) (j : Fin 128) : EReal :=
  ((∑ k : Fin 64, a k * Wa k j + ∑ k : Fin 64, b k * Wb k j) + ∑ k : Fin 64, d k * Wd k j) + b1 j

/-- Output q of the edge: the second layer over the shifted softplus of the first. -/
def edgeOut (a b d : Fin 64 → EReal) (Wa Wb Wd : Fin 64 → Fin 128 → EReal) (b1 : Fin 128 → EReal)
    (W2 : Fin 128 → Fin 64 → EReal) (b2 : Fin 64 → EReal) (q : Fin 64) : EReal :=
  (∑ j : Fin 128, ssp (hidden a b d Wa Wb Wd b1 j) * W2 j q) + b2 q

/-- THE UPDATED EDGE FEATURES at edge e, unit q, from the arrays: r0 and r1 name the node row the edge reads for its
    source and its target; the first layer's three weight blocks are rows 0-63, 64-127 and 128-191 of W1. -/
def update (r0 r1 : Fin 800000 → Fin 50000) (h : (⟨2, ![50000, 64]⟩ : Shape).Idx → EReal)
    (ea : (⟨2, ![800000, 64]⟩ : Shape).Idx → EReal) (W1 : (⟨2, ![192, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (e : Fin 800000) (q : Fin 64) : EReal :=
  edgeOut (fun k => h (ValueIdx.ix2 (r0 e) k)) (fun k => h (ValueIdx.ix2 (r1 e) k)) (fun k => ea (ValueIdx.ix2 e k))
    (fun k j => W1 (ValueIdx.ix2 (⟨0 + k.val, by have := k.isLt; omega⟩ : Fin 192) j))
    (fun k j => W1 (ValueIdx.ix2 (⟨64 + k.val, by have := k.isLt; omega⟩ : Fin 192) j))
    (fun k j => W1 (ValueIdx.ix2 (⟨128 + k.val, by have := k.isLt; omega⟩ : Fin 192) j))
    (fun j => b1 (ValueIdx.ix1 j)) (fun j q => W2 (ValueIdx.ix2 j q)) (fun q => b2 (ValueIdx.ix1 q)) q

/-- A sum over a + b + c positions is the sum of its three consecutive blocks. -/
theorem sum_three {M : Type*} [AddCommMonoid M] (a b c : Nat) (f : Fin (a + b + c) → M) :
    ∑ k, f k = (∑ k : Fin a, f ⟨k.val, by have := k.isLt; omega⟩ + ∑ k : Fin b, f ⟨a + k.val, by have := k.isLt; omega⟩)
      + ∑ k : Fin c, f ⟨a + b + k.val, by have := k.isLt; omega⟩ := by
  rw [Fin.sum_univ_add, Fin.sum_univ_add]
  rfl

/-- A sum over 192 positions is the sum of its three blocks of 64. -/
theorem sum_192 {M : Type*} [AddCommMonoid M] (f : Fin 192 → M) :
    ∑ k, f k = (∑ k : Fin 64, f ⟨0 + k.val, by have := k.isLt; omega⟩ + ∑ k : Fin 64, f ⟨64 + k.val, by have := k.isLt; omega⟩)
      + ∑ k : Fin 64, f ⟨128 + k.val, by have := k.isLt; omega⟩ := by
  refine (sum_three 64 64 64 f).trans ?_
  congr 2

end Cert.EdgeUpdate

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.KernelBody.lean ====
/-
  The kernel body's result at an index.

  A block of 8000 edges: three 8000 x 64 arrays of rows (source features, target features, edge features), the
  three 64 x 128 blocks of the first layer's weights, its bias, the second layer's 128 x 64 weights and its bias.
  The body multiplies each array of rows into its weight block, adds the three products and the bias row, applies
  the shifted softplus entry by entry, multiplies by the second weights and adds the second bias row. Changes of
  float format are the identity on the extended reals, a product into the zero accumulator is a plain sum over
  the contracted axis, and a bias vector viewed as one row and repeated down the rows reads the vector at the
  column. So entry (p, q) of the stored block is the edge update of row p of the three arrays.
-/
import proofs.«103683_j9131100471461_2_alg».proof.Proof.Gen.KernelIdeal.Skeleton
import proofs.«103683_j9131100471461_2_alg».proof.Proof.Spec
import proofs.«103683_j9131100471461_2_alg».proof.Proof.LibPlainDot
import proofs.«103683_j9131100471461_2_alg».proof.Proof.LibRowBroadcasts
import proofs.«103683_j9131100471461_2_alg».proof.Proof.LibMergeRows
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Lib Cert.EdgeUpdate
open scoped BigOperators

/-- The body's activation, entry by entry: the shifted softplus of the entry. -/
theorem act_apply (v : FVec Ideal S8000x128 .f32) (i : S8000x128.Idx) :
    subf (select (cmpf .one (subf v (broadcast S8000x128 (Scalar.ofBits .f32 0x00000000#32)))
          (subf v (broadcast S8000x128 (Scalar.ofBits .f32 0x00000000#32))))
        (addf v (broadcast S8000x128 (Scalar.ofBits .f32 0x00000000#32)))
        (addf (maximumf v (broadcast S8000x128 (Scalar.ofBits .f32 0x00000000#32)))
          (log1p (exp (subf (broadcast S8000x128 (Scalar.ofBits .f32 0x00000000#32))
            (absf (subf v (broadcast S8000x128 (Scalar.ofBits .f32 0x00000000#32)))))))))
      (broadcast S8000x128 (Scalar.ofBits .f32 0x3F317218#32)) i = ssp (v i) := rfl

/-- The first layer and its activation at (p, j). -/
theorem layer1_apply (x0 x1 : FVec Ideal S8000x64 .bf16) (x2 : FVec Ideal S8000x64 .f32) (x3 x4 x5 : FVec Ideal S64x128 .f32)
    (x6 : FVec Ideal S128 .f32) (p : Fin 8000) (j : Fin 128) :
    k0_pay2 (F := Ideal) x0 x1 x2 x3 x4 x5 x6 (ix2 p j)
      = ssp (hidden (fun k => x0 (ix2 p k)) (fun k => x1 (ix2 p k)) (fun k => x2 (ix2 p k))
          (fun k j => x3 (ix2 k j)) (fun k j => x4 (ix2 k j)) (fun k j => x5 (ix2 k j)) (fun j => x6 (ix1 j)) j) := by
  have e1 : matmul (F := Ideal) dot_S8000x64_S64x128_S8000x128_1_0_0_1_n_n none (shapeCast S8000x64 x0 shapeCasts_S8000x64_S8000x64)
      (truncf .bf16 (shapeCast S64x128 x3 shapeCasts_S64x128_S64x128) bitsLt_bf16_f32)
      (constant (F := Ideal) S8000x128 .f32 0x00000000#32) (ix2 p j) = ∑ k : Fin 64, (x0 (ix2 p k) : EReal) * x3 (ix2 k j) := by
    rw [shapeCast_self, shapeCast_self]
    exact PlainDot.matmul_zero_apply dot_S8000x64_S64x128_S8000x128_1_0_0_1_n_n_wf none x0 x3 p j
  have e2 : matmul (F := Ideal) dot_S8000x64_S64x128_S8000x128_1_0_0_1_n_n none (shapeCast S8000x64 x1 shapeCasts_S8000x64_S8000x64)
      (truncf .bf16 (shapeCast S64x128 x4 shapeCasts_S64x128_S64x128) bitsLt_bf16_f32)
      (constant (F := Ideal) S8000x128 .f32 0x00000000#32) (ix2 p j) = ∑ k : Fin 64, (x1 (ix2 p k) : EReal) * x4 (ix2 k j) := by
    rw [shapeCast_self, shapeCast_self]
    exact PlainDot.matmul_zero_apply dot_S8000x64_S64x128_S8000x128_1_0_0_1_n_n_wf none x1 x4 p j
  have e3 : matmul (F := Ideal) dot_S8000x64_S64x128_S8000x128_1_0_0_1_n_n none (truncf .bf16 x2 bitsLt_bf16_f32)
      (truncf .bf16 (shapeCast S64x128 x5 shapeCasts_S64x128_S64x128) bitsLt_bf16_f32)
      (constant (F := Ideal) S8000x128 .f32 0x00000000#32) (ix2 p j) = ∑ k : Fin 64, (x2 (ix2 p k) : EReal) * x5 (ix2 k j) := by
    rw [shapeCast_self]
    exact PlainDot.matmul_zero_apply dot_S8000x64_S64x128_S8000x128_1_0_0_1_n_n_wf none x2 x5 p j
  have eb : broadcastTo S8000x128 (shapeCast S1x128 x6 shapeCasts_S128_S1x128) broadcasts_S1x128_S8000x128 (ix2 p j)
      = x6 (ix1 j) := by
    rw [Rows.bcastRow_apply, MergeRows.row_apply]
  unfold k0_pay2
  refine (act_apply _ (ix2 p j)).trans (congrArg ssp ?_)
  exact congrArg₂ (· + ·) (congrArg₂ (· + ·) (congrArg₂ (· + ·) e1 e2) e3) eb

/-- The second layer at (p, q). -/
theorem layer2_apply (v : FVec Ideal S8000x128 .f32) (x7 : FVec Ideal S128x64 .f32) (x8 : FVec Ideal S64 .f32)
    (p : Fin 8000) (q : Fin 64) :
    k0_pay1 (F := Ideal) v x7 x8 (ix2 p q) = (∑ j : Fin 128, (v (ix2 p j) : EReal) * x7 (ix2 j q)) + x8 (ix1 q) := by
  have e1 : matmul (F := Ideal) dot_S8000x128_S128x64_S8000x64_1_0_0_1_n_n none (truncf .bf16 v bitsLt_bf16_f32)
      (truncf .bf16 x7 bitsLt_bf16_f32) (constant (F := Ideal) S8000x64 .f32 0x00000000#32) (ix2 p q)
      = ∑ j : Fin 128, (v (ix2 p j) : EReal) * x7 (ix2 j q) :=
    PlainDot.matmul_zero_apply dot_S8000x128_S128x64_S8000x64_1_0_0_1_n_n_wf none v x7 p q
  have eb : broadcastTo S8000x64 (shapeCast S1x64 x8 shapeCasts_S64_S1x64) broadcasts_S1x64_S8000x64 (ix2 p q)
      = x8 (ix1 q) := by
    rw [Rows.bcastRow_apply, MergeRows.row_apply]
  unfold k0_pay1
  exact congrArg₂ (· + ·) e1 eb

/-- ENTRY (p, q) OF THE STORED BLOCK: the edge update of row p of the three arrays of rows. -/
theorem payload_apply (x0 x1 : FVec Ideal S8000x64 .bf16) (x2 : FVec Ideal S8000x64 .f32) (x3 x4 x5 : FVec Ideal S64x128 .f32)
    (x6 : FVec Ideal S128 .f32) (x7 : FVec Ideal S128x64 .f32) (x8 : FVec Ideal S64 .f32) (p : Fin 8000) (q : Fin 64) :
    k0_pay1 (F := Ideal) (k0_pay2 x0 x1 x2 x3 x4 x5 x6) x7 x8 (ix2 p q)
      = edgeOut (fun k => x0 (ix2 p k)) (fun k => x1 (ix2 p k)) (fun k => x2 (ix2 p k))
          (fun k j => x3 (ix2 k j)) (fun k j => x4 (ix2 k j)) (fun k j => x5 (ix2 k j)) (fun j => x6 (ix1 j))
          (fun j q => x7 (ix2 j q)) (fun q => x8 (ix1 q)) q := by
  rw [layer2_apply]
  unfold edgeOut
  congr 1
  refine Finset.sum_congr rfl fun j _ => ?_
  rw [layer1_apply]

end Cert.KernelIdeal.Body

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.LibRowSlice.lean ====
/-
  Consecutive rows sliced out of a matrix, read at an index.

  The unit-stride slice of `n` rows of an `a × b` matrix from row `off` on, all columns, reads, at `(k, q)`, the matrix
  at `(off + k, q)`. For any element type and any extents.
-/
import Idealize.ShloMosaic.Lib.Pipeline.Value
import Idealize.ShloMosaic.Lib.ValueIdx

noncomputable section

namespace Cert.Lib.RowSlice

open Idealize.ShloMosaic Idealize.ShloMosaic.ValueIdx

variable {a b n : Nat} {α : Type}

/-- The slice at `(k, q)` is the matrix at `(off + k, q)`. -/
theorem apply (W : (⟨2, ![a, b]⟩ : Shape).Idx → α) (off : Nat)
    (h : (⟨2, ![a, b]⟩ : Shape).Slices ![off, 0] ⟨2, ![n, b]⟩) (k : Fin n) (q : Fin b) (hk : off + k.val < a) :
    extractStridedSlice ⟨2, ![n, b]⟩ ![off, 0] W h (ix2 k q) = W (ix2 ⟨off + k.val, hk⟩ q) :=
  extractStridedSlice_apply ![off, 0] W h (ix2 k q) (ix2 ⟨off + k.val, hk⟩ q) fun ax => by
    match ax with
    | ⟨0, _⟩ => rfl
    | ⟨1, _⟩ => show q.val = 0 + q.val; rw [Nat.zero_add]

end Cert.Lib.RowSlice

end
-- ==== Proof.KernelArrays.lean ====
/-
  The kernel's result array as one function of the argument arrays.

  Before the kernel is launched the host wraps each index word (a negative word has the number of nodes added),
  gathers the source rows and the target rows of every edge out of the node features, and cuts the first layer's
  weights into its three blocks of 64 rows. The kernel walks the 800000 edges in 100 blocks of 8000: at point t its
  three arrays of rows are rows 8000 t ... 8000 t + 7999 of the gathered sources, the gathered targets and the edge
  features, the weights and biases are whole, and what it writes back is rows 8000 t ... of the result. Entry (p, q)
  of that block is the edge update of edge 8000 t + p; the 100 blocks tile the result array, so the array ends
  holding the edge update at every edge and unit.
-/
import proofs.«103683_j9131100471461_2_alg».proof.Proof.Gen.KernelIdeal.Value
import proofs.«103683_j9131100471461_2_alg».proof.Proof.KernelBody
import proofs.«103683_j9131100471461_2_alg».proof.Proof.Spec
import proofs.«103683_j9131100471461_2_alg».proof.Proof.LibGatherScatter
import proofs.«103683_j9131100471461_2_alg».proof.Proof.LibRowSlice
import Idealize.ShloMosaic.Lib.StableHlo.Run
import Idealize.ShloMosaic.Lib.Pipeline.Value
import Idealize.ShloMosaic.Lib.ValueIdx
import Idealize.ShloMosaic.Lib.Tactic

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.Lib Cert.EdgeUpdate
open Idealize.ShloMosaic.Pipeline (Dat)

variable (m : (ℓ : Loc nD τ sig) → Buf (Elt Ideal) ℓ) (ρ : Dev nD → PrngReg)

/-! ## The index columns -/

/-- Row r of the index array as a vector of 800000 words. -/
def words0 (x2 : IVec S2x800000 32) : IVec S800000 32 :=
  shapeCast S800000 (extractStridedSlice S1x800000 ![0, 0] x2 slices_S2x800000_S1x800000_0_0) shapeCasts_S1x800000_S800000

def words1 (x2 : IVec S2x800000 32) : IVec S800000 32 :=
  shapeCast S800000 (extractStridedSlice S1x800000 ![1, 0] x2 slices_S2x800000_S1x800000_1_0) shapeCasts_S1x800000_S800000

/-- A vector of words wrapped (a negative word has 50000 added) and laid out as a column. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The node row edge e reads for its source, and for its target. -/
def krow0 (x2 : IVec S2x800000 32) (e : Fin 800000) : Fin 50000 :=
  GatherScatter.gatherRow (N := 50000) (by norm_num) (wrapCol (words0 x2)) e

def krow1 (x2 : IVec S2x800000 32) (e : Fin 800000) : Fin 50000 :=
  GatherScatter.gatherRow (N := 50000) (by norm_num) (wrapCol (words1 x2)) e

/-! ## The argument arrays, and the arrays the host wrote before the launch -/

abbrev aH (c : Dev nD) : FVec Ideal S50000x64 .f32 := m ((c : Thread nD τ).loc main_arg0)
abbrev aE (c : Dev nD) : FVec Ideal S800000x64 .f32 := m ((c : Thread nD τ).loc main_arg1)
abbrev aI (c : Dev nD) : IVec S2x800000 32 := m ((c : Thread nD τ).loc main_arg2)
abbrev aW1 (c : Dev nD) : FVec Ideal S192x128 .f32 := m ((c : Thread nD τ).loc main_arg3)
abbrev ab1 (c : Dev nD) : FVec Ideal S128 .f32 := m ((c : Thread nD τ).loc main_arg4)
abbrev aW2 (c : Dev nD) : FVec Ideal S128x64 .f32 := m ((c : Thread nD τ).loc main_arg5)
abbrev ab2 (c : Dev nD) : FVec Ideal S64 .f32 := m ((c : Thread nD τ).loc main_arg6)

/-- The gathered source rows. -/
theorem V_src (c : Dev nD) : (V m c main_call0_v11 : S800000x64.Idx → EReal)
    = Host.gather gather_S50000x64_S800000x1_S800000x64_1_0_n_n_0_1_164 (truncf .bf16 (aH m c) bitsLt_bf16_f32)
        (wrapCol (words0 (aI m c))) := by
  dsimp only [V, hostOps0]
  after_results
  rfl

/-- The gathered target rows. -/
theorem V_tgt (c : Dev nD) : (V m c main_call0_v18 : S800000x64.Idx → EReal)
    = Host.gather gather_S50000x64_S800000x1_S800000x64_1_0_n_n_0_1_164 (truncf .bf16 (aH m c) bitsLt_bf16_f32)
        (wrapCol (words1 (aI m c))) := by
  dsimp only [V, hostOps0]
  after_results
  rfl

/-- The three blocks of the first layer's weights. -/
theorem V_w1a (c : Dev nD) : (V m c main_call0_v19 : S64x128.Idx → EReal)
    = extractStridedSlice S64x128 ![0, 0] (aW1 m c) slices_S192x128_S64x128_0_0 := by
  dsimp only [V, hostOps0]
  after_results
  rfl

theorem V_w1b (c : Dev nD) : (V m c main_call0_v20 : S64x128.Idx → EReal)
    = extractStridedSlice S64x128 ![64, 0] (aW1 m c) slices_S192x128_S64x128_64_0 := by
  dsimp only [V, hostOps0]
  after_results
  rfl

theorem V_w1c (c : Dev nD) : (V m c main_call0_v21 : S64x128.Idx → EReal)
    = extractStridedSlice S64x128 ![128, 0] (aW1 m c) slices_S192x128_S64x128_128_0 := by
  dsimp only [V, hostOps0]
  after_results
  rfl

/-- The gathered source rows at (e, k): the node features at the row the edge's source word names. -/
theorem src_at (c : Dev nD) (e : Fin 800000) (k : Fin 64) :
    (V m c main_call0_v11 : S800000x64.Idx → EReal) (ix2 e k) = aH m c (ix2 (krow0 (aI m c) e) k) := by
  rw [V_src]
  exact GatherScatter.rowGather_apply (N := 50000) (C := 64) (R := 800000) (by norm_num)
    gather_S50000x64_S800000x1_S800000x64_1_0_n_n_0_1_164_wf (aH m c) (wrapCol (words0 (aI m c))) e k

theorem tgt_at (c : Dev nD) (e : Fin 800000) (k : Fin 64) :
    (V m c main_call0_v18 : S800000x64.Idx → EReal) (ix2 e k) = aH m c (ix2 (krow1 (aI m c) e) k) := by
  rw [V_tgt]
  exact GatherScatter.rowGather_apply (N := 50000) (C := 64) (R := 800000) (by norm_num)
    gather_S50000x64_S800000x1_S800000x64_1_0_n_n_0_1_164_wf (aH m c) (wrapCol (words1 (aI m c))) e k

theorem w1a_at (c : Dev nD) (k : Fin 64) (j : Fin 128) :
    (V m c main_call0_v19 : S64x128.Idx → EReal) (ix2 k j)
      = aW1 m c (ix2 (⟨0 + k.val, by have := k.isLt; omega⟩ : Fin 192) j) := by
  rw [V_w1a]
  exact RowSlice.apply (aW1 m c) 0 slices_S192x128_S64x128_0_0 k j _

theorem w1b_at (c : Dev nD) (k : Fin 64) (j : Fin 128) :
    (V m c main_call0_v20 : S64x128.Idx → EReal) (ix2 k j)
      = aW1 m c (ix2 (⟨64 + k.val, by have := k.isLt; omega⟩ : Fin 192) j) := by
  rw [V_w1b]
  exact RowSlice.apply (aW1 m c) 64 slices_S192x128_S64x128_64_0 k j _

theorem w1c_at (c : Dev nD) (k : Fin 64) (j : Fin 128) :
    (V m c main_call0_v21 : S64x128.Idx → EReal) (ix2 k j)
      = aW1 m c (ix2 (⟨128 + k.val, by have := k.isLt; omega⟩ : Fin 192) j) := by
  rw [V_w1c]
  exact RowSlice.apply (aW1 m c) 128 slices_S192x128_S64x128_128_0 k j _

/-! ## The blocks at a point -/

/-- The windows' block indices, decided over the 100 points: the three arrays of rows and the result move with the
    point along the edges; the weights and biases stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem lt_N (t : Fin cfg0.N) : t.val < 100 := lt_of_lt_of_eq t.isLt N_0

/-- Edge 8000 t + p: row p of point t's block. -/
def edge (t : Fin cfg0.N) (p : Fin 8000) : Fin 800000 :=
  ⟨8000 * t.val + p.val, by have := lt_N t; have := p.isLt; omega⟩

theorem blk0_apply (c : Dev nD) (t : Fin cfg0.N) (p : Fin 8000) (k : Fin 64) :
    (iblk m c 0 t : FVec Ideal S8000x64 .bf16) (ix2 p k) = aH m c (ix2 (krow0 (aI m c) (edge t p)) k) := by
  refine Eq.trans ?_ (src_at m c (edge t p) k)
  unfold iblk
  rw [View.read_apply]
  show V m c main_call0_v11 _ = V m c main_call0_v11 _
  congr 1
  funext a
  apply Fin.ext
  obtain ⟨h0, h1, -⟩ := idx_facts t
  match a with
  | ⟨0, _⟩ => show win0_0.index t (0 : Fin 2) * 8000 + 1 * p.val = 8000 * t.val + p.val; rw [h0]; omega
  | ⟨1, _⟩ => show win0_0.index t (1 : Fin 2) * 64 + 1 * k.val = k.val; rw [h1]; omega

theorem blk1_apply (c : Dev nD) (t : Fin cfg0.N) (p : Fin 8000) (k : Fin 64) :
    (iblk m c 1 t : FVec Ideal S8000x64 .bf16) (ix2 p k) = aH m c (ix2 (krow1 (aI m c) (edge t p)) k) := by
  refine Eq.trans ?_ (tgt_at m c (edge t p) k)
  unfold iblk
  rw [View.read_apply]
  show V m c main_call0_v18 _ = V m c main_call0_v18 _
  congr 1
  funext a
  apply Fin.ext
  obtain ⟨-, -, h0, h1, -⟩ := idx_facts t
  match a with
  | ⟨0, _⟩ => show win0_1.index t (0 : Fin 2) * 8000 + 1 * p.val = 8000 * t.val + p.val; rw [h0]; omega
  | ⟨1, _⟩ => show win0_1.index t (1 : Fin 2) * 64 + 1 * k.val = k.val; rw [h1]; omega

theorem blk2_apply (c : Dev nD) (t : Fin cfg0.N) (p : Fin 8000) (k : Fin 64) :
    (iblk m c 2 t : FVec Ideal S8000x64 .f32) (ix2 p k) = aE m c (ix2 (edge t p) k) := by
  unfold iblk
  rw [View.read_apply]
  show V m c main_arg1 _ = _
  rw [V_main_arg1]
  show m ((c : Thread nD τ).loc main_arg1) _ = m ((c : Thread nD τ).loc main_arg1) _
  congr 1
  funext a
  apply Fin.ext
  obtain ⟨-, -, -, -, h0, h1, -⟩ := idx_facts t
  match a with
  | ⟨0, _⟩ => show win0_2.index t (0 : Fin 2) * 8000 + 1 * p.val = 8000 * t.val + p.val; rw [h0]; omega
  | ⟨1, _⟩ => show win0_2.index t (1 : Fin 2) * 64 + 1 * k.val = k.val; rw [h1]; omega

theorem blk3_apply (c : Dev nD) (t : Fin cfg0.N) (k : Fin 64) (j : Fin 128) :
    (iblk m c 3 t : FVec Ideal S64x128 .f32) (ix2 k j)
      = aW1 m c (ix2 (⟨0 + k.val, by have := k.isLt; omega⟩ : Fin 192) j) := by
  refine Eq.trans ?_ (w1a_at m c k j)
  unfold iblk
  rw [View.read_apply]
  show V m c main_call0_v19 _ = V m c main_call0_v19 _
  congr 1
  funext a
  apply Fin.ext
  obtain ⟨-, -, -, -, -, -, h0, h1, -⟩ := idx_facts t
  match a with
  | ⟨0, _⟩ => show win0_3.index t (0 : Fin 2) * 64 + 1 * k.val = k.val; rw [h0]; omega
  | ⟨1, _⟩ => show win0_3.index t (1 : Fin 2) * 128 + 1 * j.val = j.val; rw [h1]; omega

theorem blk4_apply (c : Dev nD) (t : Fin cfg0.N) (k : Fin 64) (j : Fin 128) :
    (iblk m c 4 t : FVec Ideal S64x128 .f32) (ix2 k j)
      = aW1 m c (ix2 (⟨64 + k.val, by have := k.isLt; omega⟩ : Fin 192) j) := by
  refine Eq.trans ?_ (w1b_at m c k j)
  unfold iblk
  rw [View.read_apply]
  show V m c main_call0_v20 _ = V m c main_call0_v20 _
  congr 1
  funext a
  apply Fin.ext
  obtain ⟨-, -, -, -, -, -, -, -, h0, h1, -⟩ := idx_facts t
  match a with
  | ⟨0, _⟩ => show win0_4.index t (0 : Fin 2) * 64 + 1 * k.val = k.val; rw [h0]; omega
  | ⟨1, _⟩ => show win0_4.index t (1 : Fin 2) * 128 + 1 * j.val = j.val; rw [h1]; omega

theorem blk5_apply (c : Dev nD) (t : Fin cfg0.N) (k : Fin 64) (j : Fin 128) :
    (iblk m c 5 t : FVec Ideal S64x128 .f32) (ix2 k j)
      = aW1 m c (ix2 (⟨128 + k.val, by have := k.isLt; omega⟩ : Fin 192) j) := by
  refine Eq.trans ?_ (w1c_at m c k j)
  unfold iblk
  rw [View.read_apply]
  show V m c main_call0_v21 _ = V m c main_call0_v21 _
  congr 1
  funext a
  apply Fin.ext
  obtain ⟨-, -, -, -, -, -, -, -, -, -, h0, h1, -⟩ := idx_facts t
  match a with
  | ⟨0, _⟩ => show win0_5.index t (0 : Fin 2) * 64 + 1 * k.val = k.val; rw [h0]; omega
  | ⟨1, _⟩ => show win0_5.index t (1 : Fin 2) * 128 + 1 * j.val = j.val; rw [h1]; omega

theorem blk6_apply (c : Dev nD) (t : Fin cfg0.N) (j : Fin 128) :
    (iblk m c 6 t : FVec Ideal S128 .f32) (ix1 j) = ab1 m c (ix1 j) := by
  unfold iblk
  rw [View.read_apply]
  show V m c main_arg4 _ = _
  rw [V_main_arg4]
  show m ((c : Thread nD τ).loc main_arg4) _ = m ((c : Thread nD τ).loc main_arg4) _
  congr 1
  funext a
  apply Fin.ext
  obtain ⟨-, -, -, -, -, -, -, -, -, -, -, -, h0, -⟩ := idx_facts t
  match a with
  | ⟨0, _⟩ => show win0_6.index t (0 : Fin 1) * 128 + 1 * j.val = j.val; rw [h0]; omega

theorem blk7_apply (c : Dev nD) (t : Fin cfg0.N) (j : Fin 128) (q : Fin 64) :
    (iblk m c 7 t : FVec Ideal S128x64 .f32) (ix2 j q) = aW2 m c (ix2 j q) := by
  unfold iblk
  rw [View.read_apply]
  show V m c main_arg5 _ = _
  rw [V_main_arg5]
  show m ((c : Thread nD τ).loc main_arg5) _ = m ((c : Thread nD τ).loc main_arg5) _
  congr 1
  funext a
  apply Fin.ext
  obtain ⟨-, -, -, -, -, -, -, -, -, -, -, -, -, h0, h1, -⟩ := idx_facts t
  match a with
  | ⟨0, _⟩ => show win0_7.index t (0 : Fin 2) * 128 + 1 * j.val = j.val; rw [h0]; omega
  | ⟨1, _⟩ => show win0_7.index t (1 : Fin 2) * 64 + 1 * q.val = q.val; rw [h1]; omega

theorem blk8_apply (c : Dev nD) (t : Fin cfg0.N) (q : Fin 64) :
    (iblk m c 8 t : FVec Ideal S64 .f32) (ix1 q) = ab2 m c (ix1 q) := by
  unfold iblk
  rw [View.read_apply]
  show V m c main_arg6 _ = _
  rw [V_main_arg6]
  show m ((c : Thread nD τ).loc main_arg6) _ = m ((c : Thread nD τ).loc main_arg6) _
  congr 1
  funext a
  apply Fin.ext
  obtain ⟨-, -, -, -, -, -, -, -, -, -, -, -, -, -, -, h0, -⟩ := idx_facts t
  match a with
  | ⟨0, _⟩ => show win0_8.index t (0 : Fin 1) * 64 + 1 * q.val = q.val; rw [h0]; omega

/-! ## From blocks to the array -/

theorem hz2 : (![0, 0] : Fin 2 → Nat) = fun _ => 0 := funext fun a => by fin_cases a <;> rfl
theorem hz1 : (![0] : Fin 1 → Nat) = fun _ => 0 := funext fun a => by fin_cases a; rfl

/-- What the result array ends holding: the edge update at every edge and unit. -/
def result (c : Dev nD) : S800000x64.Idx → EReal := fun i =>
  update (krow0 (aI m c)) (krow1 (aI m c)) (aH m c) (aE m c) (aW1 m c) (ab1 m c) (aW2 m c) (ab2 m c) (i 0) (i 1)

/-- The edge update depends on its nine arguments only. -/
theorem edgeOut_congr {a a' b b' d d' : Fin 64 → EReal} {Wa Wa' Wb Wb' Wd Wd' : Fin 64 → Fin 128 → EReal}
    {b1 b1' : Fin 128 → EReal} {W2 W2' : Fin 128 → Fin 64 → EReal} {b2 b2' : Fin 64 → EReal} (q : Fin 64)
    (h1 : a = a') (h2 : b = b') (h3 : d = d') (h4 : Wa = Wa') (h5 : Wb = Wb') (h6 : Wd = Wd') (h7 : b1 = b1')
    (h8 : W2 = W2') (h9 : b2 = b2') :
    edgeOut a b d Wa Wb Wd b1 W2 b2 q = edgeOut a' b' d' Wa' Wb' Wd' b1' W2' b2' q := by
  subst h1 h2 h3 h4 h5 h6 h7 h8 h9; rfl

/-- Row p, column q of point t's result block is entry (8000 t + p, q) of the array. -/
theorem emb9 (t : Fin cfg0.N) (p : Fin 8000) (q : Fin 64) :
    ((cfg0.win 9).blk t).view.emb (ix2 p q) = (ix2 (edge t p) q : S800000x64.Idx) := by
  funext a
  apply Fin.ext
  obtain ⟨-, -, -, -, -, -, -, -, -, -, -, -, -, -, -, -, h0, h1⟩ := idx_facts t
  match a with
  | ⟨0, _⟩ => show win0_9.index t (0 : Fin 2) * 8000 + 1 * p.val = 8000 * t.val + p.val; rw [h0]; omega
  | ⟨1, _⟩ => show win0_9.index t (1 : Fin 2) * 64 + 1 * q.val = q.val; rw [h1]; omega

end Cert.KernelIdeal.Arrays

end
-- ==== Proof.KernelFinal.lean ====
/-
  The kernel's result array: what each point writes back, the cover, the run.

  Point t writes back the stored block read through the result window; entry (p, q) of it is the edge update of
  edge 8000 t + p, which is the result function at the array index the window sends (p, q) to. Every row of the
  array lies in the block of the point its row number divided by 8000 names, so the array ends holding the result
  function everywhere.
-/
import proofs.«103683_j9131100471461_2_alg».proof.Proof.KernelArrays

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.Lib Cert.EdgeUpdate
open Idealize.ShloMosaic.Pipeline (Dat)

variable (m : (ℓ : Loc nD τ sig) → Buf (Elt Ideal) ℓ) (ρ : Dev nD → PrngReg)

/-- WHAT POINT t WRITES BACK is block t of the result. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz2]
  simp only [View.ld_unit_zero (S := S8000x64) hz2, View.ld_unit_zero (S := S64x128) hz2,
    View.ld_unit_zero (S := S128x64) hz2, View.ld_unit_zero (S := S128) hz1, View.ld_unit_zero (S := S64) hz1]
  funext y
  obtain ⟨p, q, rfl⟩ : ∃ (p : Fin 8000) (q : Fin 64), y = ix2 p q := ⟨y 0, y 1, eq_ix2 y⟩
  show k0_pay1 (k0_pay2 (iblk m c 0 t) (iblk m c 1 t) (iblk m c 2 t) (iblk m c 3 t) (iblk m c 4 t) (iblk m c 5 t)
      (iblk m c 6 t)) (iblk m c 7 t) (iblk m c 8 t) (ix2 p q) = result m c (((cfg0.win 9).blk t).view.emb (ix2 p q))
  rw [emb9 t p q]
  refine (Body.payload_apply (iblk m c 0 t) (iblk m c 1 t) (iblk m c 2 t) (iblk m c 3 t) (iblk m c 4 t)
    (iblk m c 5 t) (iblk m c 6 t) (iblk m c 7 t) (iblk m c 8 t) p q).trans ?_
  show _ = update (krow0 (aI m c)) (krow1 (aI m c)) (aH m c) (aE m c) (aW1 m c) (ab1 m c) (aW2 m c) (ab2 m c) (edge t p) q
  unfold update
  exact edgeOut_congr q (funext fun k => blk0_apply m c t p k) (funext fun k => blk1_apply m c t p k)
    (funext fun k => blk2_apply m c t p k) (funext fun k => funext fun j => blk3_apply m c t k j)
    (funext fun k => funext fun j => blk4_apply m c t k j) (funext fun k => funext fun j => blk5_apply m c t k j)
    (funext fun j => blk6_apply m c t j) (funext fun j => funext fun q => blk7_apply m c t j q)
    (funext fun q => blk8_apply m c t q)

/-- An index of the array is in point t's block iff its row is among the block's 8000. -/
theorem mem_blk (t : Fin cfg0.N) (i : S800000x64.Idx) :
    i ∈ ((cfg0.win 9).blk t).view.set ↔ ∀ a : Fin 2, win0_9.index t a * S8000x64.size a ≤ (i a).val
      ∧ (i a).val < win0_9.index t a * S8000x64.size a + S8000x64.size a := by
  show i ∈ ((View.whole main_v0).slice (win0_9.rect t)).set ↔ _
  rw [View.set_slice_whole, Rect.mem_set_unit]
  exact Iff.rfl

/-- Every index of the array is in the block of the point its row falls in. -/
theorem cover (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hN : cfg0.N = 100 := N_0
  let t : Fin cfg0.N := ⟨(i 0).val / 8000, by rw [hN]; omega⟩
  refine ⟨t, flush0_9 t, ?_⟩
  rw [mem_blk]
  obtain ⟨-, -, -, -, -, -, -, -, -, -, -, -, -, -, -, -, h0, h1⟩ := idx_facts t
  have ht : t.val = (i 0).val / 8000 := rfl
  intro a
  match a with
  | ⟨0, _⟩ =>
    show win0_9.index t (0 : Fin 2) * 8000 ≤ (i 0).val ∧ (i 0).val < win0_9.index t (0 : Fin 2) * 8000 + 8000
    rw [h0, ht]; omega
  | ⟨1, _⟩ =>
    show win0_9.index t (1 : Fin 2) * 64 ≤ (i 1).val ∧ (i 1).val < win0_9.index t (1 : Fin 2) * 64 + 64
    rw [h1]; omega

/-- THE RESULT ARRAY after the run. -/
theorem final (c : Dev nD) : (dats m 0 c).arrAt 9 cfg0.N = result m c :=
  (dats m 0 c).arrAt_eq_of_cover 9 (result m c) (fun t _ => flushed_eq m c t) cover

/-- The kernel's run, read: the result array at the edge update, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Arrays

end
-- ==== Proof.RefRead.lean ====
/-
  The reference read at an index.

  The reference gathers each edge's source and target node rows, joins them with the edge's own row into one row
  of 192, multiplies by the 192 x 128 weights, adds a bias, applies the shifted softplus, multiplies by the
  128 x 64 weights and adds a second bias. Read at edge e and unit q: a row gather reads the row its index word
  names; position k of the joined row is the source row at k for k < 64, the target row at k - 64 for k < 128 and
  the edge's own row at k - 128 beyond; the sum over the 192 positions is the sum of its three blocks of 64; and the
  softplus, with its absolute value negated where the other arrangement subtracts it from zero, is the same
  extended real. So the result at (e, q) is the edge update of the three rows.
-/
import proofs.«103683_j9131100471461_2_alg».proof.Proof.Gen.ReferenceIdeal.Read
import proofs.«103683_j9131100471461_2_alg».proof.Proof.Spec
import proofs.«103683_j9131100471461_2_alg».proof.Proof.LibGatherScatter
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Lib Cert.EdgeUpdate
open scoped BigOperators

/-- The node row edge e reads for its source: the word of row 0 of the index array, wrapped and clamped. -/
def row0 (x2 : IVec S2x800000 32) (e : Fin 800000) : Fin 50000 :=
  GatherScatter.gatherRow (N := 50000) (by norm_num) (val_main_v7 (F := Ideal) x2) e

/-- The node row edge e reads for its target: the word of row 1 of the index array, wrapped and clamped. -/
def row1 (x2 : IVec S2x800000 32) (e : Fin 800000) : Fin 50000 :=
  GatherScatter.gatherRow (N := 50000) (by norm_num) (val_main_v16 (F := Ideal) x2) e

variable (x0 : FVec Ideal S50000x64 .f32) (x1 : FVec Ideal S800000x64 .f32) (x2 : IVec S2x800000 32)
  (x3 : FVec Ideal S192x128 .f32) (x4 : FVec Ideal S128 .f32) (x5 : FVec Ideal S128x64 .f32) (x6 : FVec Ideal S64 .f32)

/-- The gathered source rows at (e, k). -/
theorem src_apply (e : Fin 800000) (k : Fin 64) :
    val_main_v8 (F := Ideal) x0 x2 (ix2 e k) = x0 (ix2 (row0 x2 e) k) :=
  GatherScatter.rowGather_apply (N := 50000) (C := 64) (R := 800000) (by norm_num)
    gather_S50000x64_S800000x1_S800000x64_1_0_n_n_0_1_164_wf x0 (val_main_v7 (F := Ideal) x2) e k

/-- The gathered target rows at (e, k). -/
theorem tgt_apply (e : Fin 800000) (k : Fin 64) :
    val_main_v17 (F := Ideal) x0 x2 (ix2 e k) = x0 (ix2 (row1 x2 e) k) :=
  GatherScatter.rowGather_apply (N := 50000) (C := 64) (R := 800000) (by norm_num)
    gather_S50000x64_S800000x1_S800000x64_1_0_n_n_0_1_164_wf x0 (val_main_v16 (F := Ideal) x2) e k

/-- Positions 0-63 of the joined row are the source row. -/
theorem cat0 (e : Fin 800000) (k : Fin 64) (h : 0 + k.val < 192) :
    val_main_v18 (F := Ideal) x0 x1 x2 (ix2 e (⟨0 + k.val, h⟩ : Fin 192)) = x0 (ix2 (row0 x2 e) k) := by
  unfold val_main_v18
  refine (concatenate_apply_piece (t := S800000x192) (1 : Fin 2)
    [⟨S800000x64, val_main_v8 (F := Ideal) x0 x2⟩, ⟨S800000x64, val_main_v17 (F := Ideal) x0 x2⟩, ⟨S800000x64, x1⟩]
    concatenates_S800000x64_S800000x64_S800000x64_S800000x192_d1
    (ix2 e (⟨0 + k.val, h⟩ : Fin 192)) 0 (by simp) S800000x64 (val_main_v8 (F := Ideal) x0 x2) rfl rfl 0 rfl (ix2 e k) ?_ ?_).trans
    (src_apply x0 x2 e k)
  · intro b hb
    match b, hb with
    | ⟨0, _⟩, _ => rfl
    | ⟨1, _⟩, hb => exact absurd rfl hb
  · rfl

/-- Positions 64-127 of the joined row are the target row. -/
theorem cat1 (e : Fin 800000) (k : Fin 64) (h : 64 + k.val < 192) :
    val_main_v18 (F := Ideal) x0 x1 x2 (ix2 e (⟨64 + k.val, h⟩ : Fin 192)) = x0 (ix2 (row1 x2 e) k) := by
  unfold val_main_v18
  refine (concatenate_apply_piece (t := S800000x192) (1 : Fin 2)
    [⟨S800000x64, val_main_v8 (F := Ideal) x0 x2⟩, ⟨S800000x64, val_main_v17 (F := Ideal) x0 x2⟩, ⟨S800000x64, x1⟩]
    concatenates_S800000x64_S800000x64_S800000x64_S800000x192_d1
    (ix2 e (⟨64 + k.val, h⟩ : Fin 192)) 1 (by simp) S800000x64 (val_main_v17 (F := Ideal) x0 x2) rfl rfl 64 rfl (ix2 e k) ?_ ?_).trans
    (tgt_apply x0 x2 e k)
  · intro b hb
    match b, hb with
    | ⟨0, _⟩, _ => rfl
    | ⟨1, _⟩, hb => exact absurd rfl hb
  · rfl

/-- Positions 128-191 of the joined row are the edge's own row. -/
theorem cat2 (e : Fin 800000) (k : Fin 64) (h : 128 + k.val < 192) :
    val_main_v18 (F := Ideal) x0 x1 x2 (ix2 e (⟨128 + k.val, h⟩ : Fin 192)) = x1 (ix2 e k) := by
  unfold val_main_v18
  refine concatenate_apply_piece (t := S800000x192) (1 : Fin 2)
    [⟨S800000x64, val_main_v8 (F := Ideal) x0 x2⟩, ⟨S800000x64, val_main_v17 (F := Ideal) x0 x2⟩, ⟨S800000x64, x1⟩]
    concatenates_S800000x64_S800000x64_S800000x64_S800000x192_d1
    (ix2 e (⟨128 + k.val, h⟩ : Fin 192)) 2 (by simp) S800000x64 x1 rfl rfl 128 rfl (ix2 e k) ?_ ?_
  · intro b hb
    match b, hb with
    | ⟨0, _⟩, _ => rfl
    | ⟨1, _⟩, hb => exact absurd rfl hb
  · rfl

/-- The left operand's index of the first product at (e, j), position k: (e, k). -/
theorem lidx19 (e : Fin 800000) (j : Fin 128) (k : Fin 192) : lidx_main_v19 (ix2 e j) k = ix2 e k :=
  funext fun a => Fin.ext (by match a with | ⟨0, _⟩ => rfl | ⟨1, _⟩ => rfl)

/-- The right operand's index of the first product at (e, j), position k: (k, j). -/
theorem ridx19 (e : Fin 800000) (j : Fin 128) (k : Fin 192) : ridx_main_v19 (ix2 e j) k = ix2 k j :=
  funext fun a => Fin.ext (by match a with | ⟨0, _⟩ => rfl | ⟨1, _⟩ => rfl)

/-- The first layer before its activation at (e, j). -/
theorem ref_hidden (e : Fin 800000) (j : Fin 128) :
    val_main_v22 (F := Ideal) x0 x1 x2 x3 x4 (ix2 e j)
      = hidden (fun k => x0 (ix2 (row0 x2 e) k)) (fun k => x0 (ix2 (row1 x2 e) k)) (fun k => x1 (ix2 e k))
          (fun k j => x3 (ix2 (⟨0 + k.val, by have := k.isLt; omega⟩ : Fin 192) j))
          (fun k j => x3 (ix2 (⟨64 + k.val, by have := k.isLt; omega⟩ : Fin 192) j))
          (fun k j => x3 (ix2 (⟨128 + k.val, by have := k.isLt; omega⟩ : Fin 192) j))
          (fun j => x4 (ix1 j)) j := by
  have eb : val_main_v21 (F := Ideal) x4 (ix2 e j) = x4 (ix1 j) := by
    rw [val_main_v21_apply, val_main_v20_apply]
    exact congrArg x4 (funext fun a => Fin.ext (by match a with | ⟨0, _⟩ => rfl))
  have es : val_main_v19 (F := Ideal) x0 x1 x2 x3 (ix2 e j)
      = (∑ k : Fin 64, x0 (ix2 (row0 x2 e) k) * x3 (ix2 (⟨0 + k.val, by have := k.isLt; omega⟩ : Fin 192) j)
          + ∑ k : Fin 64, x0 (ix2 (row1 x2 e) k) * x3 (ix2 (⟨64 + k.val, by have := k.isLt; omega⟩ : Fin 192) j))
        + ∑ k : Fin 64, x1 (ix2 e k) * x3 (ix2 (⟨128 + k.val, by have := k.isLt; omega⟩ : Fin 192) j) := by
    rw [val_main_v19_apply]
    simp only [lidx19, ridx19]
    rw [sum_192]
    simp only [cat0, cat1, cat2]
  rw [val_main_v22_apply, es, eb]
  rfl

/-- The shifted softplus of the reference, entry by entry. -/
theorem ref_act (i : S800000x128.Idx) :
    val_main_v25 (F := Ideal) x0 x1 x2 x3 x4 i = ssp (val_main_v22 (F := Ideal) x0 x1 x2 x3 x4 i) := by
  rw [← ssp_neg_form]
  simp only [val_main_v25_apply, val_main_v23_apply, val_main_call0_v4_apply, val_main_call0_v3_apply,
    val_main_call0_v6_apply, val_main_call0_v11_apply, val_main_call0_v1_apply, val_main_call0_v10_apply,
    val_main_call0_v9_apply, val_main_call0_v8_apply, val_main_call0_v7_apply, val_main_call0_v0_apply,
    val_main_call0_v2_apply, val_main_call0_v5_apply, val_main_call0_cst_apply, val_main_v24_apply, val_main_cst_apply]
  rfl

/-- The left operand's index of the second product at (e, q), position j: (e, j). -/
theorem lidx26 (e : Fin 800000) (q : Fin 64) (j : Fin 128) : lidx_main_v26 (ix2 e q) j = ix2 e j :=
  funext fun a => Fin.ext (by match a with | ⟨0, _⟩ => rfl | ⟨1, _⟩ => rfl)

/-- The right operand's index of the second product at (e, q), position j: (j, q). -/
theorem ridx26 (e : Fin 800000) (q : Fin 64) (j : Fin 128) : ridx_main_v26 (ix2 e q) j = ix2 j q :=
  funext fun a => Fin.ext (by match a with | ⟨0, _⟩ => rfl | ⟨1, _⟩ => rfl)

/-- THE REFERENCE'S RESULT at (e, q): the edge update. -/
theorem ref_apply (e : Fin 800000) (q : Fin 64) :
    val_main_v29 (F := Ideal) x0 x1 x2 x3 x4 x5 x6 (ix2 e q) = update (row0 x2) (row1 x2) x0 x1 x3 x4 x5 x6 e q := by
  have eb : val_main_v28 (F := Ideal) x6 (ix2 e q) = x6 (ix1 q) := by
    rw [val_main_v28_apply, val_main_v27_apply]
    exact congrArg x6 (funext fun a => Fin.ext (by match a with | ⟨0, _⟩ => rfl))
  rw [val_main_v29_apply, val_main_v26_apply, eb]
  simp only [lidx26, ridx26, ref_act, ref_hidden]
  rfl

/-- The reference's result as a whole array. -/
theorem ref_eq :
    val_main_v29 (F := Ideal) x0 x1 x2 x3 x4 x5 x6
      = fun i => update (row0 x2) (row1 x2) x0 x1 x3 x4 x5 x6 (i 0) (i 1) := by
  funext i
  obtain ⟨e, q, rfl⟩ : ∃ (e : Fin 800000) (q : Fin 64), i = ix2 e q := ⟨i 0, i 1, eq_ix2 i⟩
  exact ref_apply x0 x1 x2 x3 x4 x5 x6 e q

end Cert.ReferenceIdeal.RefValue

end
-- ==== Proof.lean ====
/-
  The edge update of a graph network layer, tiled over the edges, against its plain reference.

  Each of 800000 edges reads the 64 features of its source node and of its target node out of a 50000 x 64 table
  (an index word is wrapped when negative and clamped into the table), joins them with its own 64 features, and
  sends the 192 numbers through a dense layer to 128, a shifted softplus, and a second dense layer to 64.
  The reference does this on whole arrays: two row gathers, a concatenation, a 192 x 128 product, the softplus, a
  128 x 64 product. The kernel gathers on the host, cuts the first weights into three 64 x 128 blocks, and walks the
  edges in 100 blocks of 8000, multiplying each of the three arrays of rows into its own weight block and adding the
  three products. On the extended reals a change of float format is the identity and every product is the exact
  sum over its contracted axis, so both programs end with the same function of the arguments at every edge and
  unit: the sum over the 192 joined positions is the sum of its three blocks of 64 (commutativity and associativity
  of the sum only, so no finiteness is used), and the two arrangements of the softplus differ by 0 - a = -a.
  The kernel's idealization rewrote nothing, so its agreement with the word-level kernel has nothing to state.
-/
import proofs.«103683_j9131100471461_2_alg».proof.Defs
import proofs.«103683_j9131100471461_2_alg».proof.Proof.Gen.Kernel
import proofs.«103683_j9131100471461_2_alg».proof.Proof.Gen.Kernel.Skeleton
import proofs.«103683_j9131100471461_2_alg».proof.Proof.Gen.Kernel.Launch
import proofs.«103683_j9131100471461_2_alg».proof.Proof.Gen.Kernel.Points
import proofs.«103683_j9131100471461_2_alg».proof.Proof.Gen.Kernel.Frame
import proofs.«103683_j9131100471461_2_alg».proof.Proof.Gen.KernelIdeal
import proofs.«103683_j9131100471461_2_alg».proof.Proof.Gen.KernelIdeal.Skeleton
import proofs.«103683_j9131100471461_2_alg».proof.Proof.Gen.KernelIdeal.Launch
import proofs.«103683_j9131100471461_2_alg».proof.Proof.Gen.KernelIdeal.Points
import proofs.«103683_j9131100471461_2_alg».proof.Proof.Gen.KernelIdeal.Frame
import proofs.«103683_j9131100471461_2_alg».proof.Proof.Gen.ReferenceIdeal
import proofs.«103683_j9131100471461_2_alg».proof.Proof.Gen.Pre_finite_inputs
import proofs.«103683_j9131100471461_2_alg».proof.Proof.Gen.KernelIdeal.Value
import proofs.«103683_j9131100471461_2_alg».proof.Proof.Gen.ReferenceIdeal.Run
import proofs.«103683_j9131100471461_2_alg».proof.Proof.Gen.ReferenceIdeal.Read
import proofs.«103683_j9131100471461_2_alg».proof.Proof.KernelArrays
import proofs.«103683_j9131100471461_2_alg».proof.Proof.KernelFinal
import proofs.«103683_j9131100471461_2_alg».proof.Proof.RefRead
import Idealize.ShloMosaic.Adequacy
import Idealize.ShloMosaic.Init

noncomputable section

namespace Cert.Proof

open Idealize.ShloMosaic Idealize.SL.Sem

/-- Both programs wrap and lay out the index words by the same operations: the node row an edge reads for its
    source is the same in both. -/
theorem row0_eq (x2 : IVec Cert.KernelIdeal.S2x800000 32) :
    Cert.KernelIdeal.Arrays.krow0 x2 = Cert.ReferenceIdeal.RefValue.row0 x2 := rfl

/-- And for its target. -/
theorem row1_eq (x2 : IVec Cert.KernelIdeal.S2x800000 32) :
    Cert.KernelIdeal.Arrays.krow1 x2 = Cert.ReferenceIdeal.RefValue.row1 x2 := rfl

/-- The result array depends on the two row maps as functions only. -/
theorem update_rows_congr {r0 r0' r1 r1' : Fin 800000 → Fin 50000} (e0 : r0 = r0') (e1 : r1 = r1')
    (h : (⟨2, ![50000, 64]⟩ : Shape).Idx → EReal) (ea : (⟨2, ![800000, 64]⟩ : Shape).Idx → EReal)
    (W1 : (⟨2, ![192, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (fun i : (⟨2, ![800000, 64]⟩ : Shape).Idx => Cert.EdgeUpdate.update r0 r1 h ea W1 b1 W2 b2 (i 0) (i 1))
      = fun i => Cert.EdgeUpdate.update r0' r1' h ea W1 b1 W2 b2 (i 0) (i 1) := by
  subst e0 e1; rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the edge update of the arguments (the blocks the 100 points write back tile
    it), the reference's at its composed operations, which read at an index are the edge update too; the arguments
    agree, and the two programs' row maps are one function. -/
theorem algebraic : Cert.algebraic_KernelIdeal_ReferenceIdeal := by
  intro m ρ m' ρ' _ hagree
  refine ⟨fun c => Cert.KernelIdeal.Arrays.result m c, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v29_eq, Cert.ReferenceIdeal.RefValue.ref_eq, h0, h1, h2, h3, h4, h5, h6]
  exact update_rows_congr (row0_eq _).symm (row1_eq _).symm _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
